-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S16672x128 : Shape := ⟨2, ![16672, 128]⟩

abbrev nBuf : Space → Nat
  | .hbm => 5
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S100000x128, .f32⟩
  | .local _ .vmem, ⟨0, _⟩ => ⟨S16672x128, .f32⟩
  | .local _ .vmem, ⟨1, _⟩ => ⟨S16672x128, .f32⟩
  | .local _ .vmem, ⟨2, _⟩ => ⟨S128x128, .f32⟩
  | .local _ .vmem, ⟨3, _⟩ => ⟨S1x128, .f32⟩
  | .local _ .vmem, ⟨4, _⟩ => ⟨S16672x128, .f32⟩
  | .local _ .vmem, ⟨5, _⟩ => ⟨S16672x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16672x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16672x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S16672x128_S16672x128_0_0 : ∀ a, (![0, 0] : Fin 2 → Nat) a + S16672x128.size a ≤ S16672x128.size a
  h_S16672x128 : 0 < S16672x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16672x128 : S1x128.Broadcasts S16672x128
  dot_S16672x128_S128x128_S16672x128_1_0_0_1_n_n_wf : DotDims.WF S16672x128 S128x128 S16672x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16672x128.size a < S100000x128.size a
  hwx0_0 : ∀ i : grid0.Coords, EltTy.bits .f32 = 32 ∨ (Rect.unit (s := S100000x128) (fun a => cc0_transform_0 i a * S16672x128.size a) (fun a => (Pipeline.Clip.of (cc0_transform_0 i a) (S16672x128.size a) (S100000x128.size a)).extent (S16672x128.size a)) fun a => Pipeline.Clip.inb (Pipeline.Clip.ok_of (hstart0_0 i a))).WholeWords (EltTy.packing .f32)
  hwxs0_0 : ∀ i : grid0.Coords, EltTy.bits .f32 = 32 ∨ (Rect.unit (s := S16672x128) (fun _ => 0) (fun a => (Pipeline.Clip.of (cc0_transform_0 i a) (S16672x128.size a) (S100000x128.size a)).extent (S16672x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16672x128.size a < S100000x128.size a
  hwx0_3 : ∀ i : grid0.Coords, EltTy.bits .f32 = 32 ∨ (Rect.unit (s := S100000x128) (fun a => cc0_transform_3 i a * S16672x128.size a) (fun a => (Pipeline.Clip.of (cc0_transform_3 i a) (S16672x128.size a) (S100000x128.size a)).extent (S16672x128.size a)) fun a => Pipeline.Clip.inb (Pipeline.Clip.ok_of (hstart0_3 i a))).WholeWords (EltTy.packing .f32)
  hwxs0_3 : ∀ i : grid0.Coords, EltTy.bits .f32 = 32 ∨ (Rect.unit (s := S16672x128) (fun _ => 0) (fun a => (Pipeline.Clip.of (cc0_transform_3 i a) (S16672x128.size a) (S100000x128.size a)).extent (S16672x128.size a)) fun a => (Nat.zero_add _).trans_le (Pipeline.Clip.extent_le (Pipeline.Clip.ok_of (hstart0_3 i a)))).WholeWords (EltTy.packing .f32)

variable [Facts₀]

def dot_S16672x128_S128x128_S16672x128_1_0_0_1_n_n : DotDims S16672x128 S128x128 S16672x128 where
  lhsContracting := [1]
  rhsContracting := [0]
  lhsNonContracting := [0]
  rhsNonContracting := [1]
  lhsBatch := []
  rhsBatch := []
  wf := dot_S16672x128_S128x128_S16672x128_1_0_0_1_n_n_wf

abbrev win0_0 : Pipeline.Window sig grid0 :=
  Pipeline.Window.ofSpecClip (Memref.whole main_arg0) S16672x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S16672x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S100000x128, .f32⟩
  | .hbm, ⟨4, _⟩ => ⟨S1x128, .f32⟩
  | .hbm, ⟨5, _⟩ => ⟨S100000x128, .f32⟩
  | .hbm, ⟨6, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.TileBits.lean ====
/-
  One tile of the layer: the body's effect on its staging buffers, and the data of the run.

  The layer is out = x · W + b over 100000 rows of 128 features, computed 16672 rows at a time on a grid of six
  points. This module runs the body once on arbitrary buffer contents (the result tile ends at the affine image of
  the feature tile), states what each staging buffer holds after the body at each point, and what the body finds
  there before it runs.
-/
import proofs.«107172_g10316511445453_week1_w1_1035_11_alg».proof.Proof.Gen.Kernel.Frame
import proofs.«107172_g10316511445453_week1_w1_1035_11_alg».proof.Proof.Gen.Kernel.Skeleton
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on one tile

The body reads a tile of 16672 rows of the features, the whole 128 × 128 weight matrix and the bias row, and
overwrites the result tile with (tile · weights) + bias, every row of the tile, whatever the rows hold. -/

/-- The rectangle every access of the row tiles goes through: the whole tile, at offsets zero. -/
abbrev rTile : Rect S16672x128 := Rect.unit (s := S16672x128) ![0, 0] S16672x128.size inb_S16672x128_S16672x128_0_0

theorem zeros2 : (![0, 0] : Fin 2 → Nat) = fun _ => 0 := funext fun a => by fin_cases a <;> rfl

/-- One store through the whole-tile rectangle covers the tile. -/
theorem cover_tile (p0 : Vec F S16672x128 .f32) (y : S16672x128.Idx) :
    ∃ pc ∈ ([⟨rTile, p0⟩] : List (View.Piece (Elt F) S16672x128 .f32)), y ∈ pc.1.set :=
  View.cover_of_tiled [⟨rTile, p0⟩] S16672x128.size (by rfl) y

set_option maxHeartbeats 1000000 in
/-- On whole staging buffers holding `x0` (a feature tile), `x1` (the weights), `x2` (the bias row) and anything in the
    result tile, the body ends with the three inputs as they were and the result tile at the affine image
    `k0_pay1 x0 x1 x2` of the feature tile. -/
theorem sound_kernel (c : Dev nD) (E : Set ℕ) (i : grid0.Coords)
    (arg1 : Memref sig .tc .vmem S16672x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S16672x128 .f32) (harg4 : arg4.IsWhole)
    (x0 : Vec F S16672x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E
          (cc0__gcn_linear_kernel i arg1 harg1 arg2 harg2 arg3 harg3 arg4 harg4) K := by
  simp only [cc0__gcn_linear_kernel_eq_skeleton]; unfold cc0__gcn_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover_tile _)).trans ?_
  rw [View.canon_unit_zero zeros2]
  simp only [View.readAt_eq_ld, View.ld_unit_zero (S := S16672x128) zeros2, View.ld_unit_zero (S := S128x128) zeros2,
    View.ld_unit_zero (S := S1x128) zeros2]

/-! ## The proof data

Six tiles of 16672 rows cover the 100000 rows with 32 rows to spare: the last tile's rows 16640 and up lie past the
array. A fetch fills only the rows inside the array; the other rows of the staging buffer hold words nothing names,
and the body computes on them too. The data below names each buffer's contents on the rows inside the array and puts
the zero word on the others. -/

/-- The feature tile at point `t`: the block's rows inside the array, the zero word on the rows past its end. -/
def xtile (c : Dev nD) (t : Fin cfg0.N) : S16672x128.Idx → Elt F .f32 :=
  (cfg0.win 0).fill (cfg0.grid.coords t) (fun _ => Scalar.ofBits .f32 0#32) (iblk m c 0 t)

/-- The arrays as the region finds them; after the body the feature buffer at `xtile`, the weights and the bias row at
    their blocks, the result buffer at the body's affine image of these; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => iblk m c 2 t
    | ⟨3, _⟩ => k0_pay1 (xtile m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xtile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay1 (xtile m c t) (iblk m c 1 t) (iblk m c 2 t) := by dsimp only [dats]

/-! ## What the body finds -/

/-- The feature buffer was just fetched at every point: the block on the rows inside the array, `d` on the others. -/
theorem before0 (c : Dev nD) (t : Fin cfg0.N) (d) :
    (dats m 0 c).before 0 t d = (cfg0.win 0).fill (cfg0.grid.coords t) d (iblk m c 0 t) := by
  rw [Dat.before_fetched _ 0 t (fetch0_0 t)]
  unfold Dat.fetched Dat.blockOf iblk
  rw [A_eq]

/-- The weights and the bias row, fetched once, are found at their blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The result buffer is written back at every point, so the body finds it at contents nothing names. -/
theorem before3 (c : Dev nD) (t : Fin cfg0.N) (d) : (dats m 0 c).before 3 t d = d :=
  Dat.before_out_reset _ 3 rfl t
    (by by_cases h : t.val = 0
        · exact Or.inl h
        · exact Or.inr ⟨h, flush0_3 _⟩) d

end Cert.Kernel.Tile

end
-- ==== Proof.FrameBits.lean ====
/-
  The word-level program runs to its end and leaves its three arguments as they were.

  Nothing here reads what the body writes into the result tile: the claim is about the arguments only. So the data of
  the run is read with the result window's contents left unnamed; the features' buffer is handed back as the body
  found it, its rows inside the array at the block and its other rows at whatever they held.
-/
import proofs.«107172_g10316511445453_week1_w1_1035_11_alg».proof.Proof.TileBits

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents after the body are left unnamed: the result's. -/
def unread : Fin 4 → Bool := fun w => w.val == 3

/-- At every point: the body is handed the three input buffers (the features' just fetched, the weights and the bias
    row at their blocks) and the result buffer at anything, and hands all four back — the inputs unchanged. -/
theorem body_obligation (c : Dev nD) :
    BodyObligationLoose (dats (F := F) m 0 c) (defs₀ (F := F)) Variants.none () Set.univ unread := fun t => by
  rw [bigSep_W0, bigSep_W0]
  rw [show unread 0 = false from rfl, show unread 1 = false from rfl, show unread 2 = false from rfl,
    show unread 3 = true from rfl]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%X3, H3⟩⟩
  rw [before0 m c t d0, before1 m c t d1, before2 m c t d2]
  have hx : (win0 0).cut (grid0.coords t) (xtile m c t) = iblk m c 0 t := (win0 0).cut_fill _ _ _
  rw [after0, after1, after2, hx]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

/-! ## The run, and the arguments after it -/

set_option backward.isDefEq.respectTransparency.types false in
/-- Every weakly fair execution terminates, nothing faulting; each array of the call ends at contents the data allows
    (an input's: those it had), every other unscoped buffer as the region found it. -/
theorem run_main : θ_run defs (onTc (τ := τ) (main (F := F))) (s₀ m ρ)
    (Pipeline.RDat.FramePost (cfgs 0) (fun c => (dats m 0 c).toRForget unread) (V m)) :=
  Pipeline.RDat.θ_run_frame cfgs (0 : Fin 1) launch0 defs₀ Variants.none (fun c => (dats m 0 c).toRForget unread) m ρ main
    (hbody := fun c => (body_obligation m c).toRForget)
    (hshare := fun c => ((dats m 0 c).toRForget unread).share_full fun _ => rfl)
    (howed := fun _ _ => rfl) (V := V m) (hmain := hmain m Variants.none) (hA := A_eq m) (hΦ := fun _ _ => rfl)

/-- The features and the weights are inputs of the call, never written back; the bias vector bypasses the call. All
    three end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0
    have h1 := (h c).1 1
    rw [Pipeline.RDat.ArrAt_in _ 0 rfl] at h0
    rw [Pipeline.RDat.ArrAt_in _ 1 rfl] at h1
    exact ⟨h0.trans ((A_eq m c 0).trans (V_main_arg0 m c)), h1.trans ((A_eq m c 1).trans (V_main_arg1 m c)),
      ((h c).2 main_arg2 (Pipeline.mem_restRefs_of main_arg2 (by decide) (by decide))).trans (V_main_arg2 m c)⟩)
    (run_main m ρ)

end Cert.Kernel.Tile

end
-- ==== Proof.TileIdeal.lean ====
/-
  One tile of the layer: the body's effect on its staging buffers, and the data of the run.

  The layer is out = x · W + b over 100000 rows of 128 features, computed 16672 rows at a time on a grid of six
  points. This module runs the body once on arbitrary buffer contents (the result tile ends at the affine image of
  the feature tile), states what each staging buffer holds after the body at each point, and what the body finds
  there before it runs.
-/
import proofs.«107172_g10316511445453_week1_w1_1035_11_alg».proof.Proof.Gen.KernelIdeal.Frame
import proofs.«107172_g10316511445453_week1_w1_1035_11_alg».proof.Proof.Gen.KernelIdeal.Skeleton
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on one tile

The body reads a tile of 16672 rows of the features, the whole 128 × 128 weight matrix and the bias row, and
overwrites the result tile with (tile · weights) + bias, every row of the tile, whatever the rows hold. -/

/-- The rectangle every access of the row tiles goes through: the whole tile, at offsets zero. -/
abbrev rTile : Rect S16672x128 := Rect.unit (s := S16672x128) ![0, 0] S16672x128.size inb_S16672x128_S16672x128_0_0

theorem zeros2 : (![0, 0] : Fin 2 → Nat) = fun _ => 0 := funext fun a => by fin_cases a <;> rfl

/-- One store through the whole-tile rectangle covers the tile. -/
theorem cover_tile (p0 : Vec F S16672x128 .f32) (y : S16672x128.Idx) :
    ∃ pc ∈ ([⟨rTile, p0⟩] : List (View.Piece (Elt F) S16672x128 .f32)), y ∈ pc.1.set :=
  View.cover_of_tiled [⟨rTile, p0⟩] S16672x128.size (by rfl) y

set_option maxHeartbeats 1000000 in
/-- On whole staging buffers holding `x0` (a feature tile), `x1` (the weights), `x2` (the bias row) and anything in the
    result tile, the body ends with the three inputs as they were and the result tile at the affine image
    `k0_pay1 x0 x1 x2` of the feature tile. -/
theorem sound_kernel (c : Dev nD) (E : Set ℕ) (i : grid0.Coords)
    (arg1 : Memref sig .tc .vmem S16672x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S16672x128 .f32) (harg4 : arg4.IsWhole)
    (x0 : Vec F S16672x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E
          (cc0__gcn_linear_kernel i arg1 harg1 arg2 harg2 arg3 harg3 arg4 harg4) K := by
  simp only [cc0__gcn_linear_kernel_eq_skeleton]; unfold cc0__gcn_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover_tile _)).trans ?_
  rw [View.canon_unit_zero zeros2]
  simp only [View.readAt_eq_ld, View.ld_unit_zero (S := S16672x128) zeros2, View.ld_unit_zero (S := S128x128) zeros2,
    View.ld_unit_zero (S := S1x128) zeros2]

/-! ## The proof data

Six tiles of 16672 rows cover the 100000 rows with 32 rows to spare: the last tile's rows 16640 and up lie past the
array. A fetch fills only the rows inside the array; the other rows of the staging buffer hold words nothing names,
and the body computes on them too. The data below names each buffer's contents on the rows inside the array and puts
the zero word on the others. -/

/-- The feature tile at point `t`: the block's rows inside the array, the zero word on the rows past its end. -/
def xtile (c : Dev nD) (t : Fin cfg0.N) : S16672x128.Idx → Elt F .f32 :=
  (cfg0.win 0).fill (cfg0.grid.coords t) (fun _ => Scalar.ofBits .f32 0#32) (iblk m c 0 t)

/-- The arrays as the region finds them; after the body the feature buffer at `xtile`, the weights and the bias row at
    their blocks, the result buffer at the body's affine image of these; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => iblk m c 2 t
    | ⟨3, _⟩ => k0_pay1 (xtile m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xtile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay1 (xtile m c t) (iblk m c 1 t) (iblk m c 2 t) := by dsimp only [dats]

/-! ## What the body finds -/

/-- The feature buffer was just fetched at every point: the block on the rows inside the array, `d` on the others. -/
theorem before0 (c : Dev nD) (t : Fin cfg0.N) (d) :
    (dats m 0 c).before 0 t d = (cfg0.win 0).fill (cfg0.grid.coords t) d (iblk m c 0 t) := by
  rw [Dat.before_fetched _ 0 t (fetch0_0 t)]
  unfold Dat.fetched Dat.blockOf iblk
  rw [A_eq]

/-- The weights and the bias row, fetched once, are found at their blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The result buffer is written back at every point, so the body finds it at contents nothing names. -/
theorem before3 (c : Dev nD) (t : Fin cfg0.N) (d) : (dats m 0 c).before 3 t d = d :=
  Dat.before_out_reset _ 3 rfl t
    (by by_cases h : t.val = 0
        · exact Or.inl h
        · exact Or.inr ⟨h, flush0_3 _⟩) d

end Cert.KernelIdeal.Tile

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«107172_g10316511445453_week1_w1_1035_11_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.PayIdeal.lean ====
/-
  The body's result tile at an entry, on the extended reals.

  Row p of the result tile is row p of the feature tile times the weights, plus the bias row: entry (p, q) is the sum
  over k of tile (p, k) · W (k, q), plus the bias row's entry q. In particular it depends on row p of the feature
  tile only, so rows of the tile past the array's end never reach a row inside it.
-/
import proofs.«107172_g10316511445453_week1_w1_1035_11_alg».proof.Proof.TileIdeal
import proofs.«107172_g10316511445453_week1_w1_1035_11_alg».proof.Proof.LibDotRecord
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.ValueIdx

/-- Entry (p, q) of the body's result tile. -/
theorem pay_apply (x0 : Vec Ideal S16672x128 .f32) (x1 : Vec Ideal S128x128 .f32) (x2 : Vec Ideal S1x128 .f32)
    (p : Fin 16672) (q : Fin 128) :
    k0_pay1 (F := Ideal) x0 x1 x2 (ix2 p q)
      = (∑ k : Fin 128, x0 (ix2 p k) * x1 (ix2 k q)) + x2 (ix2 (0 : Fin 1) q) := by
  unfold k0_pay1
  refine (addf_apply _ _ (ix2 p q)).trans ?_
  exact congrArg₂ (· + ·)
    (DotRecord.matmul_zero_apply dot_S16672x128_S128x128_S16672x128_1_0_0_1_n_n rfl rfl rfl rfl rfl rfl x0 x1 none p q)
    ((DotRecord.broadcastTo_1b_ab_apply _ broadcasts_S1x128_S16672x128 p q).trans
      (congrFun (shapeCast_self x2 shapeCasts_S1x128_S1x128) _))

/-- Two feature tiles that agree on row p give result tiles that agree on row p. -/
theorem pay_row_congr (x0 x0' : Vec Ideal S16672x128 .f32) (x1 : Vec Ideal S128x128 .f32) (x2 : Vec Ideal S1x128 .f32)
    (p : Fin 16672) (h : ∀ k : Fin 128, x0 (ix2 p k) = x0' (ix2 p k)) (q : Fin 128) :
    k0_pay1 (F := Ideal) x0 x1 x2 (ix2 p q) = k0_pay1 (F := Ideal) x0' x1 x2 (ix2 p q) := by
  rw [pay_apply, pay_apply]
  exact congrArg (· + x2 (ix2 (0 : Fin 1) q)) (Finset.sum_congr rfl fun k _ => by rw [h k])

end Cert.KernelIdeal.Tile

end
-- ==== Proof.RunIdeal.lean ====
/-
  The run of the idealized kernel, point by point.

  At each point the fetch fills the rows of the feature buffer that lie inside the array and leaves the others at words
  nothing names; the body computes on all of them. Because a row of the result reads the same row of the feature tile
  only, the rows written back do not depend on the unnamed rows. This gives the body's obligation at every point and,
  by the launch theorem, the run.
-/
import proofs.«107172_g10316511445453_week1_w1_1035_11_alg».proof.Proof.PayIdeal

set_option maxRecDepth 16384

noncomputable section

namespace Cert.KernelIdeal.Tile

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Rows past the array's end do not reach the rows inside it -/

/-- Two fills of one block agree wherever the transfer moves. -/
theorem fill_congr_of_moved {sg : RefSig} {G : Pipeline.Grid} (w : Window sg G) {α : Type} (i : G.Coords)
    (d d' : w.block.Idx → α) (g : (w.xblock i).Idx → α) {j : w.block.Idx} (h : w.moved i j = true) :
    w.fill i d g j = w.fill i d' g j := by
  unfold Window.fill; rw [dif_pos h, dif_pos h]

/-- The rows of the result tile that the write-back moves are those the fetch filled in the feature tile, and the
    body's result on such a row reads that row only: what the feature buffer holds on its other rows is immaterial. -/
theorem cut_pay_fill (i : grid0.Coords) (d d' : S16672x128.Idx → Elt Ideal .f32)
    (g : ((win0 0).xblock i).Idx → Elt Ideal .f32) (W : Vec Ideal S128x128 .f32) (b : Vec Ideal S1x128 .f32) :
    (win0 3).cut i (k0_pay1 (F := Ideal) ((win0 0).fill i d g) W b)
      = (win0 3).cut i (k0_pay1 (F := Ideal) ((win0 0).fill i d' g) W b) := by
  funext j
  have hj0 : (j 0).val < (win0 0).xsize i 0 := (j 0).isLt
  have hp : (j 0).val < 16672 := lt_of_lt_of_le (j 0).isLt ((win0 3).xsize_le i 0)
  have hq : (j 1).val < 128 := lt_of_lt_of_le (j 1).isLt ((win0 3).xsize_le i 1)
  have e : (win0 3).xinj i j = ix2 (⟨(j 0).val, hp⟩ : Fin 16672) (⟨(j 1).val, hq⟩ : Fin 128) :=
    funext fun a => match a with | ⟨0, _⟩ => rfl | ⟨1, _⟩ => rfl
  show k0_pay1 (F := Ideal) _ W b ((win0 3).xinj i j) = k0_pay1 (F := Ideal) _ W b ((win0 3).xinj i j)
  rw [e]
  refine pay_row_congr _ _ W b ⟨(j 0).val, hp⟩ (fun k => ?_) ⟨(j 1).val, hq⟩
  have h1 : (win0 0).xsize i 1 = 128 := rfl
  refine fill_congr_of_moved (win0 0) i d d' g (((win0 0).moved_iff i _).mpr fun a => ?_)
  match a with
  | ⟨0, _⟩ => exact hj0
  | ⟨1, _⟩ => exact lt_of_lt_of_eq k.isLt h1.symm

/-- So the result tile the body leaves, whatever the feature buffer held past the array's end, is the tile computed from
    any other filling `Y` of those rows, once its own rows outside the write-back are put back. -/
theorem fill_cut_pay (i : grid0.Coords) (d z : S16672x128.Idx → Elt Ideal .f32)
    (g : ((win0 0).xblock i).Idx → Elt Ideal .f32) (W : Vec Ideal S128x128 .f32) (b : Vec Ideal S1x128 .f32)
    (Y : Vec Ideal S16672x128 .f32) (hY : Y = (win0 0).fill i z g) :
    (win0 3).fill i (k0_pay1 (F := Ideal) ((win0 0).fill i d g) W b) ((win0 3).cut i (k0_pay1 (F := Ideal) Y W b))
      = k0_pay1 (F := Ideal) ((win0 0).fill i d g) W b := by
  subst hY
  exact (win0 3).fill_congr_cut i (cut_pay_fill i d z g W b)

/-! ## The body obligation on the extended reals -/

/-- At every point the body is handed the feature buffer just fetched (the block on the rows inside the array, anything
    on the others), the weights and the bias row at their blocks, and the result buffer at anything; it hands the inputs
    back unchanged and the result buffer at the affine image of the feature buffer — which, on the rows the write-back
    moves, is the affine image of the block. -/
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2, before3 m c t d3]
  have hx : (win0 0).cut (grid0.coords t) (xtile m c t) = iblk m c 0 t := (win0 0).cut_fill _ _ _
  have hy := fill_cut_pay (grid0.coords t) d0 (fun _ => Scalar.ofBits (F := Ideal) .f32 0#32) (iblk m c 0 t) (iblk m c 1 t)
    (iblk m c 2 t) (xtile m c t) rfl
  rw [after0, after1, after2, after3, hx]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    ((cfg0.win 0).fill (cfg0.grid.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (k0_pay1 (F := Ideal) ((win0 0).fill (grid0.coords t) d0 (iblk m c 0 t)) (iblk m c 1 t) (iblk m c 2 t))
  rw [hy]
  iexact H3

/-! ## The run -/

set_option backward.isDefEq.respectTransparency.types false in
/-- Every weakly fair execution terminates, nothing faulting; each array of the call ends at what the data computes
    (an input's: what it held; the result's: its entry contents overwritten block by block by the rows written back),
    every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Tile

end
-- ==== Proof.Affine.lean ====
/-
  The layer as one function of its arguments: out = x · W + b on the extended reals.

  x is 100000 × 128, W is 128 × 128, b has 128 entries. Entry (p, q) of the result is the sum over k of
  x (p, k) · W (k, q), plus b q. Both programs compute exactly this; no law beyond reading each side at an entry is
  needed, so nothing here asks the inputs to be finite.
-/
import Idealize.ShloMosaic.PureOps.Ideal
import Idealize.ShloMosaic.Lib.ValueIdx

noncomputable section

namespace Affine

open Idealize.ShloMosaic Idealize.ShloMosaic.ValueIdx

/-- Entry (p, q) of x · W + b. -/
def entry (x : FVec Ideal ⟨2, ![100000, 128]⟩ .f32) (W : FVec Ideal ⟨2, ![128, 128]⟩ .f32) (b : FVec Ideal ⟨1, ![128]⟩ .f32)
    (p : Fin 100000) (q : Fin 128) : EReal :=
  (∑ k : Fin 128, x (ix2 p k) * W (ix2 k q)) + b (ix1 q)

/-- The whole result: at every index, the entry at its two coordinates. -/
def layer (x : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun j => entry x W b (j 0) (j 1)

theorem layer_apply (x : FVec Ideal ⟨2, ![100000, 128]⟩ .f32) (W : FVec Ideal ⟨2, ![128, 128]⟩ .f32) (b : FVec Ideal ⟨1, ![128]⟩ .f32)
    (p : Fin 100000) (q : Fin 128) : layer x W b (ix2 p q) = entry x W b p q := rfl

end Affine

end
-- ==== Proof.ArrayIdeal.lean ====
/-
  From the six tiles to the whole result, on the extended reals.

  Point t writes back rows t · 16672 … of the result: all 16672 rows of its tile at the first five points, the first
  16640 at the last one, whose other 32 rows lie past the array. On those rows the tile is the affine image of the
  block of x the fetch read, with the whole W and the bias row; so what point t writes back is the layer read through
  point t's block. The six blocks cover the 100000 rows, hence the result array ends holding the layer.
-/
import proofs.«107172_g10316511445453_week1_w1_1035_11_alg».proof.Proof.RunIdeal
import proofs.«107172_g10316511445453_week1_w1_1035_11_alg».proof.Proof.Affine
import Idealize.ShloMosaic.Lib.StableHlo.Run

set_option maxRecDepth 16384

noncomputable section

namespace Cert.KernelIdeal.Tile

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The index maps and the cuts, point by point -/

/-- Decided over the six points: the features' and the result's block index is (t, 0), the weights' and the bias
    row's (0, 0); the write-back moves 16672 rows, but 16640 at the last point, and all 128 lanes. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_3.xsize (grid0.coords t) (0 : Fin 2) = (if t.val = 5 then 16640 else 16672)
    ∧ win0_3.xsize (grid0.coords t) (1 : Fin 2) = 128 :=
  (by decide +kernel : ∀ t : Fin grid0.N, _)

theorem point_lt (t : Fin cfg0.N) : t.val < 6 := lt_of_lt_of_eq t.isLt N_0

/-! ## The three inputs as the body reads them -/

/-- The bias row the region finds is the bias vector given a unit leading axis: entry (0, q) is b q. -/
theorem bias_row (c : Dev nD) (q : Fin 128) :
    V m c main_v0 (ix2 (0 : Fin 1) q) = m ((c : Thread nD τ).loc main_arg2) (ix1 q) := by
  have e : (V m c main_v0 : S1x128.Idx → Elt Ideal .f32)
      = shapeCast S1x128 (m ((c : Thread nD τ).loc main_arg2)) shapeCasts_S128_S1x128 := by
    dsimp only [V, hostOps0]; after_results; rfl
  rw [e]
  refine (shapeCast_addUnit_apply ![128] _ _ _).trans ?_
  exact congrArg _ (funext fun a => match a with | ⟨0, _⟩ => rfl)

/-- Row r of the feature tile at point t, for r among the rows the transfer moves, is row t · 16672 + r of x. -/
theorem xtile_apply (c : Dev nD) (t : Fin cfg0.N) (r : Fin 16672) (k : Fin 128)
    (hr : r.val < win0_3.xsize (grid0.coords t) (0 : Fin 2)) (P : Fin 100000) (hP : P.val = t.val * 16672 + r.val) :
    xtile m c t (ix2 r k) = V m c main_arg0 (ix2 P k) := by
  have h1 : (win0 0).xsize (grid0.coords t) 1 = 128 := rfl
  have hm : (cfg0.win 0).moved (cfg0.grid.coords t) (ix2 r k) = true :=
    ((cfg0.win 0).moved_iff _ _).mpr fun a => match a with
      | ⟨0, _⟩ => hr
      | ⟨1, _⟩ => lt_of_lt_of_eq k.isLt h1.symm
  obtain ⟨e0, e1, -⟩ := grid_facts t
  unfold xtile Window.fill
  rw [dif_pos hm]
  unfold iblk
  show V m c main_arg0 (((cfg0.win 0).blk t).view.emb _) = V m c main_arg0 (ix2 P k)
  refine congrArg (V m c main_arg0) (funext fun a => Fin.ext ?_)
  match a with
  | ⟨0, _⟩ => show win0_0.index t (0 : Fin 2) * 16672 + 1 * r.val = P.val; omega
  | ⟨1, _⟩ => show win0_0.index t (1 : Fin 2) * 128 + 1 * k.val = k.val; omega

/-- The weights' block is the whole matrix. -/
theorem wblk_apply (c : Dev nD) (t : Fin cfg0.N) (k q : Fin 128) :
    iblk m c 1 t (ix2 k q) = V m c main_arg1 (ix2 k q) := by
  obtain ⟨-, -, e2, e3, -⟩ := grid_facts t
  unfold iblk
  show V m c main_arg1 (((cfg0.win 1).blk t).view.emb (ix2 k q)) = _
  refine congrArg (V m c main_arg1) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias row's block is the whole row, whose entry q is b q. -/
theorem bblk_apply (c : Dev nD) (t : Fin cfg0.N) (q : Fin 128) :
    iblk m c 2 t (ix2 (0 : Fin 1) q) = m ((c : Thread nD τ).loc main_arg2) (ix1 q) := by
  obtain ⟨-, -, -, -, e4, e5, -⟩ := grid_facts t
  unfold iblk
  show V m c main_v0 (((cfg0.win 2).blk t).view.emb (ix2 (0 : Fin 1) q)) = _
  refine (congrArg (V m c main_v0) (funext fun a => Fin.ext ?_)).trans (bias_row m c q)
  match a with
  | ⟨0, _⟩ => show win0_2.index t (0 : Fin 2) * 1 + 1 * 0 = 0; omega
  | ⟨1, _⟩ => show win0_2.index t (1 : Fin 2) * 128 + 1 * q.val = q.val; omega

/-! ## What a point writes back -/

/-- The rows point t writes back are the layer's rows t · 16672 …, read through point t's block of the result. -/
theorem flushed_eq (c : Dev nD) (t : Fin cfg0.N) :
    (dats m 0 c).flushed 3 t = ((cfg0.win 3).blk t).view.read (Elt Ideal)
      (Affine.layer (V m c main_arg0) (V m c main_arg1) (m ((c : Thread nD τ).loc main_arg2))) := by
  show (cfg0.win 3).cut (grid0.coords t) ((dats m 0 c).after 3 t) = _
  rw [after3]
  funext j
  obtain ⟨-, -, -, -, -, -, e6, e7, e8, e9⟩ := grid_facts t
  have ht := point_lt t
  have hr : (j 0).val < win0_3.xsize (grid0.coords t) (0 : Fin 2) := (j 0).isLt
  have hp : (j 0).val < 16672 := lt_of_lt_of_le (j 0).isLt ((win0 3).xsize_le (grid0.coords t) 0)
  have hq : (j 1).val < 128 := lt_of_lt_of_le (j 1).isLt ((win0 3).xsize_le (grid0.coords t) 1)
  have hP : t.val * 16672 + (j 0).val < 100000 := by
    have h := hr; rw [e8] at h; split at h <;> omega
  have ei : (win0 3).xinj (grid0.coords t) j = ix2 (⟨(j 0).val, hp⟩ : Fin 16672) (⟨(j 1).val, hq⟩ : Fin 128) :=
    funext fun a => match a with | ⟨0, _⟩ => rfl | ⟨1, _⟩ => rfl
  have eo : ((cfg0.win 3).blk t).view.emb j
      = ix2 (⟨t.val * 16672 + (j 0).val, hP⟩ : Fin 100000) (⟨(j 1).val, hq⟩ : Fin 128) := by
    funext a; apply Fin.ext
    match a with
    | ⟨0, _⟩ => show win0_3.index t (0 : Fin 2) * 16672 + 1 * (j 0).val = t.val * 16672 + (j 0).val; omega
    | ⟨1, _⟩ => show win0_3.index t (1 : Fin 2) * 128 + 1 * (j 1).val = (j 1).val; omega
  show k0_pay1 (F := Ideal) (xtile m c t) (iblk m c 1 t) (iblk m c 2 t) ((win0 3).xinj (grid0.coords t) j)
    = Affine.layer _ _ _ (((cfg0.win 3).blk t).view.emb j)
  rw [ei, eo, Affine.layer_apply]
  refine (pay_apply _ _ _ _ _).trans ?_
  unfold Affine.entry
  rw [bblk_apply]
  refine congrArg (· + _) (Finset.sum_congr rfl fun k _ => ?_)
  rw [xtile_apply m c t _ k hr ⟨_, hP⟩ rfl, wblk_apply]

/-! ## The six blocks cover the rows -/

/-- An index of the result lies in point t's block iff on each axis its coordinate is among those the write-back moves. -/
theorem mem_blk (t : Fin cfg0.N) (i : S100000x128.Idx) :
    i ∈ ((cfg0.win 3).blk t).view.set ↔ ∀ a : Fin 2, win0_3.index t a * S16672x128.size a ≤ (i a).val
      ∧ (i a).val < win0_3.index t a * S16672x128.size a + win0_3.xsize (grid0.coords t) a := by
  show i ∈ ((View.whole main_v1).slice (win0_3.rect t)).set ↔ _
  rw [View.set_slice_whole, Rect.mem_set_unit]
  exact Iff.rfl

/-- Row r of the result is written back by point r / 16672. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 16672 < cfg0.N := by rw [show cfg0.N = 6 from N_0]; omega
  obtain ⟨-, -, -, -, -, -, e6, e7, e8, e9⟩ := grid_facts ⟨(i 0).val / 16672, hN⟩
  refine ⟨⟨(i 0).val / 16672, hN⟩, flush0_3 _, (mem_blk _ i).mpr fun a => ?_⟩
  match a with
  | ⟨0, _⟩ =>
    show win0_3.index ⟨(i 0).val / 16672, hN⟩ (0 : Fin 2) * 16672 ≤ (i 0).val
      ∧ (i 0).val < win0_3.index ⟨(i 0).val / 16672, hN⟩ (0 : Fin 2) * 16672
          + win0_3.xsize (grid0.coords ⟨(i 0).val / 16672, hN⟩) (0 : Fin 2)
    rw [e6, e8]
    show (i 0).val / 16672 * 16672 ≤ (i 0).val
      ∧ (i 0).val < (i 0).val / 16672 * 16672 + (if (i 0).val / 16672 = 5 then 16640 else 16672)
    split <;> omega
  | ⟨1, _⟩ =>
    show win0_3.index ⟨(i 0).val / 16672, hN⟩ (1 : Fin 2) * 128 ≤ (i 1).val
      ∧ (i 1).val < win0_3.index ⟨(i 0).val / 16672, hN⟩ (1 : Fin 2) * 128
          + win0_3.xsize (grid0.coords ⟨(i 0).val / 16672, hN⟩) (1 : Fin 2)
    rw [e7, e9]; omega

/-! ## The result array, and the run read back -/

/-- After the six write-backs the result array holds the layer of the arrays the region found. -/
theorem final (c : Dev nD) : (dats m 0 c).arrAt 3 cfg0.N
    = Affine.layer (V m c main_arg0) (V m c main_arg1) (m ((c : Thread nD τ).loc main_arg2)) :=
  (dats m 0 c).arrAt_eq_of_cover 3 _ (fun t _ => flushed_eq m c t) cover

/-- Every weakly fair execution of the idealized kernel terminates, nothing faulting, with the result array at the layer
    of the three arguments and the arguments as launched. -/
theorem run : θ_run defs (onTc (τ := τ) (main (F := Ideal))) ⟨m, fun _ => 0, ρ⟩ fun r => ∀ c : Dev nD,
      r.2.mem ((c.tc : Thread nD τ).loc main_v1)
        = Affine.layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans ((final m c).trans (by rw [V_main_arg0, V_main_arg1])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

/-- The frame alone: the same run with the result dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.KernelIdeal.Tile

end
-- ==== Proof.RefAffine.lean ====
/-
  The reference computes the layer.

  The reference multiplies the features by the weights in one product, broadcasts the bias over the rows and adds. Read
  at entry (p, q): the product is the sum over k of x (p, k) · W (k, q), the broadcast bias is b q, and their sum is the
  layer's entry.
-/
import proofs.«107172_g10316511445453_week1_w1_1035_11_alg».proof.Proof.Gen.ReferenceIdeal.Read
import proofs.«107172_g10316511445453_week1_w1_1035_11_alg».proof.Proof.Affine

noncomputable section

namespace Cert.ReferenceIdeal.RefValue

open Cert.ReferenceIdeal Cert.ReferenceIdeal.Gen Cert.ReferenceIdeal.Read
open Idealize.ShloMosaic Idealize.ShloMosaic.ValueIdx

/-- The reference's result, as a function of its three arguments, is the layer. -/
theorem ref_is_layer (x : (⟨S100000x128, .f32⟩ : BufTy).Contents (Elt Ideal)) (W : (⟨S128x128, .f32⟩ : BufTy).Contents (Elt Ideal))
    (b : (⟨S128, .f32⟩ : BufTy).Contents (Elt Ideal)) :
    val_main_v3 (F := Ideal) x W b = Affine.layer x W b := by
  funext i
  obtain ⟨p, q, rfl⟩ : ∃ (p : Fin 100000) (q : Fin 128), i = ix2 p q := ⟨i 0, i 1, eq_ix2 i⟩
  have el : ∀ k : Fin 128, lidx_main_v0 (ix2 p q) k = ix2 p k := fun k =>
    funext fun a => match a with | ⟨0, _⟩ => rfl | ⟨1, _⟩ => rfl
  have er : ∀ k : Fin 128, ridx_main_v0 (ix2 p q) k = ix2 k q := fun k =>
    funext fun a => match a with | ⟨0, _⟩ => rfl | ⟨1, _⟩ => rfl
  have eb : idx_main_v1 (idx_main_v2 (ix2 p q)) = ix1 q := funext fun a => match a with | ⟨0, _⟩ => rfl
  rw [val_main_v3_apply, val_main_v0_apply, val_main_v2_apply, val_main_v1_apply, Affine.layer_apply]
  simp only [el, er, eb, Ideal.addf_def]
  rfl

end Cert.ReferenceIdeal.RefValue

end
-- ==== Proof.lean ====
/-
  A graph-convolution layer reduced to a dense affine map: out = x · W + b, with x of 100000 rows and 128 features,
  W 128 × 128 and b of 128 entries. The kernel streams x through on-chip memory 16672 rows at a time over a grid of six
  points (the last tile overhangs the array by 32 rows, which are neither read from it nor written back to it), multiplies
  each tile by W on the matrix unit into a zero accumulator and adds the bias row; the reference is one matrix product
  plus a broadcast bias.

  On the extended reals both are, at entry (p, q), the sum over k of x (p, k) · W (k, q) plus b q: the same sum in the
  same order of the final addition, so no algebraic law and no finiteness of the inputs is used.

  The five claims: the word-level kernel, the idealized kernel and the idealized reference each run to the end without
  fault and leave their arguments unchanged; the idealization rewrote nothing; and the two idealized programs end with
  equal results.
-/
import proofs.«107172_g10316511445453_week1_w1_1035_11_alg».proof.Defs
import proofs.«107172_g10316511445453_week1_w1_1035_11_alg».proof.Proof.Gen.Kernel
import proofs.«107172_g10316511445453_week1_w1_1035_11_alg».proof.Proof.Gen.KernelIdeal
import proofs.«107172_g10316511445453_week1_w1_1035_11_alg».proof.Proof.Gen.ReferenceIdeal
import proofs.«107172_g10316511445453_week1_w1_1035_11_alg».proof.Proof.Gen.Pre_finite_inputs
import proofs.«107172_g10316511445453_week1_w1_1035_11_alg».proof.Proof.Gen.ReferenceIdeal.Run
import proofs.«107172_g10316511445453_week1_w1_1035_11_alg».proof.Proof.Gen.ReferenceIdeal.Read
import proofs.«107172_g10316511445453_week1_w1_1035_11_alg».proof.Proof.FrameBits
import proofs.«107172_g10316511445453_week1_w1_1035_11_alg».proof.Proof.ArrayIdeal
import proofs.«107172_g10316511445453_week1_w1_1035_11_alg».proof.Proof.RefAffine
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Tile.frame m ρ

/-- So does the idealized kernel. -/
theorem frame_kernel_ideal : Cert.frame_KernelIdeal := fun m ρ _ => Cert.KernelIdeal.Tile.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer x · W + b of their (agreeing) arguments. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_is_layer, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
